-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S1024_d1 : S1024x1024.ReducesTo [1] S1024
  h_S_ : 0 < S_.numel
  bcast_S1024_S1x1024_1 : S1024.BroadcastsInDim S1x1024 (![1] : Fin 1 → Fin S1x1024.rank)
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x1024.size a
  hwx0_3 : ∀ i : grid0.Coords, EltTy.bits .f32 = 32 ∨ (Rect.block (s := S16384x1024) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_cst_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_cst_1 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_v15 : Ref sig .tc := ⟨.hbm, 35, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384 : S_.BroadcastsInDim S16384 (![] : Fin 0 → Fin S16384.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.LibLogSoftmaxShift.lean ====
/-
  The log-softmax of a row of scores, and two facts about it on the extended reals.

  For a row `L` of `K` scores write `m` for its maximum (taken from −∞) and
  `logSoftmax L k = (L k − m) − log (∑ j, exp (L j − m))`.

  1. Adding one real constant `a` to every score of a row of real scores does not change its log-softmax: the
     maximum moves by `a` (adding a real is monotone, and −∞ + a = −∞), so every difference `L k − m` stays what it was.
  2. For real vectors `x` and `c_j` the scores `−½ (‖x‖² − 2⟨x, c_j⟩ + ‖c_j‖²)` (minus half the squared distance, expanded)
     are the scores `⟨x, c_j⟩ − ½‖c_j‖²` plus the constant `−½‖x‖²`, which does not depend on `j`; so by 1. both rows of
     scores have one log-softmax. The constants ½, 2, −½ and 0 are passed as extended reals with their values as
     hypotheses, so that the statement applies to whatever spelling of them a program uses.

  Everything holds for every row length `K` and every vector length `D`.
-/
import Idealize.ShloMosaic.PureOps.Ideal

noncomputable section

open scoped BigOperators

namespace Cert.LibLogSoftmaxShift

open Idealize.ShloMosaic

/-- The maximum of a row of scores, taken from −∞. -/
def rowMax {K : ℕ} (L : Fin K → EReal) : EReal := (Finset.univ : Finset (Fin K)).fold max ⊥ L

/-- The log-softmax of a row at position `k`: the score minus the row's maximum, minus the logarithm of the sum of the
    exponentials of all such differences. -/
def logSoftmax {K : ℕ} (L : Fin K → EReal) (k : Fin K) : EReal :=
  (L k - rowMax L) - Ideal.log (∑ j, Ideal.exp (L j - rowMax L))

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Adding a real to every score adds it to the row's maximum. -/
theorem rowMax_add_real {K : ℕ} (L : Fin K → EReal) (a : ℝ) :
    rowMax (fun k => L k + (a : EReal)) = rowMax L + (a : EReal) := by
  unfold rowMax
  have hm : ∀ x y : EReal, max x y + (a : EReal) = max (x + (a : EReal)) (y + (a : EReal)) := fun x y =>
    Monotone.map_max (f := fun z : EReal => z + (a : EReal)) (fun _ _ h => add_le_add h le_rfl)
  have h := Finset.fold_hom (op := max) (op' := max) (f := L) (b := (⊥ : EReal)) (s := Finset.univ)
    (m := fun z : EReal => z + (a : EReal)) hm
  rw [← h, EReal.bot_add]

/-- A real score and a maximum both moved by the same real: their difference is unchanged, whatever the maximum. -/
theorem shift_sub (l r : ℝ) (M : EReal) : ((l : EReal) + (r : EReal)) - (M + (r : EReal)) = (l : EReal) - M := by
  induction M using EReal.rec with
  | bot => rw [EReal.bot_add, ← EReal.coe_add, EReal.coe_sub_bot, EReal.coe_sub_bot]
  | top => rw [EReal.top_add_coe, EReal.sub_top, EReal.sub_top]
  | coe m => rw [← EReal.coe_add, ← EReal.coe_add, ← EReal.coe_sub, ← EReal.coe_sub]; congr 1; ring

/-- The log-softmax of a row of real scores does not change when a real constant is added to every score. -/
theorem logSoftmax_add_real {K : ℕ} (l : Fin K → ℝ) (a : ℝ) (k : Fin K) :
    logSoftmax (fun j => ((l j : ℝ) : EReal) + (a : EReal)) k = logSoftmax (fun j => ((l j : ℝ) : EReal)) k := by
  unfold logSoftmax
  rw [rowMax_add_real (fun j => ((l j : ℝ) : EReal)) a]
  simp only [shift_sub]

/-- Minus half the expanded squared distances to the centres `c_j`, and the inner products less half the centres'
    squared norms, have one log-softmax: the two rows of scores differ by −½‖x‖² at every `j`. -/
theorem logSoftmax_dist {D K : ℕ} (half two nhalf zero : EReal) (hh : half = ((1 / 2 : ℝ) : EReal))
    (h2 : two = ((2 : ℝ) : EReal)) (hn : nhalf = ((-(1 / 2) : ℝ) : EReal)) (hz : zero = 0)
    (x : Fin D → ℝ) (c : Fin K → Fin D → ℝ) (k : Fin K) :
    logSoftmax (fun j => nhalf * (((zero + ∑ d, (x d : EReal) * (x d : EReal)) - two * ∑ d, (x d : EReal) * (c j d : EReal))
        + (zero + ∑ d, (c j d : EReal) * (c j d : EReal)))) k
      = logSoftmax (fun j => (∑ d, (x d : EReal) * (c j d : EReal)) - half * (zero + ∑ d, (c j d : EReal) * (c j d : EReal))) k := by
  subst hh h2 hn hz
  have hk : ∀ j, (∑ d, (x d : EReal) * (c j d : EReal)) - ((1 / 2 : ℝ) : EReal) * (0 + ∑ d, (c j d : EReal) * (c j d : EReal))
      = (((∑ d, x d * c j d) - (1 / 2) * ∑ d, c j d * c j d : ℝ) : EReal) := by
    intro j
    simp only [zero_add, ← EReal.coe_mul, ← coe_sum, ← EReal.coe_sub]
  have hr : ∀ j, ((-(1 / 2) : ℝ) : EReal) * (((0 + ∑ d, (x d : EReal) * (x d : EReal)) - ((2 : ℝ) : EReal) * ∑ d, (x d : EReal) * (c j d : EReal))
        + (0 + ∑ d, (c j d : EReal) * (c j d : EReal)))
      = (((∑ d, x d * c j d) - (1 / 2) * ∑ d, c j d * c j d : ℝ) : EReal) + ((-(1 / 2) * ∑ d, x d * x d : ℝ) : EReal) := by
    intro j
    simp only [zero_add, ← EReal.coe_mul, ← coe_sum, ← EReal.coe_sub, ← EReal.coe_add]
    congr 1
    ring
  simp only [hk, hr]
  exact logSoftmax_add_real _ _ k

end Cert.LibLogSoftmaxShift

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«142295_j69406671503893_2_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibLogSoftmaxBlock.lean ====
/-
  The log-softmax of every row of a matrix, as the vector unit spells it and as the host spells it, read at an entry.

  Both spell `(z − m) − log (Σ exp (z − m))` row by row, `m` the row's maximum: the vector unit reduces along the lanes from
  −∞ and from 0, regards each row statistic as a column and spreads the column back over the row; the host reduces from −∞
  (and takes one more maximum with −∞, which changes nothing) and from 0, and spreads each statistic back in two steps.
  At row `p` and column `q` either one is the log-softmax of row `p` at position `q`. For any number of rows and any row length.
-/
import proofs.«142295_j69406671503893_2_alg».proof.Proof.LibLogSoftmaxShift
import proofs.«142295_j69406671503893_2_alg».proof.Proof.LibColumn
import proofs.«142295_j69406671503893_2_alg».proof.Proof.LibRowScalars
import proofs.«142295_j69406671503893_2_alg».proof.Proof.LibHostColumn
import proofs.«142295_j69406671503893_2_alg».proof.Proof.LibHostRowMax
import proofs.«142295_j69406671503893_2_alg».proof.Proof.LibHostRowSum
import proofs.«142295_j69406671503893_2_alg».proof.Proof.LibHostRow
import Idealize.ShloMosaic.PureOps.Ideal.Laws
import Idealize.ShloMosaic.Lib.ValueIdx

noncomputable section

open scoped BigOperators

namespace Cert.LibLogSoftmaxBlock

open Idealize.ShloMosaic Idealize.ShloMosaic.ValueIdx Cert.LibLogSoftmaxShift

/-- The f32 word of −∞ is the extended reals' least element. -/
theorem ofBits_ninf : Ideal.ofBits .f32 0xFF800000#32 = ⊥ := by simp [Ideal.ofBits, Ideal.ieee]

/-- The lane maximum (from −∞) of an `[a, b]` array at row `p`: the maximum of that row. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p) = rowMax fun k => src (ix2 p k) := by
  refine (Ideal.multiReduction_maximumf_single src 0xFF800000#32 h hφ hacc (ix1 p)).trans ?_
  unfold rowMax
  rw [show FloatOps.ofBits (F := Ideal) .f32 0xFF800000#32 = ⊥ from ofBits_ninf]
  refine congrArg (Finset.fold max ⊥ · Finset.univ) ?_
  funext k
  exact congrArg src (funext fun d => by
    match d with
    | ⟨0, _⟩ => rfl
    | ⟨1, _⟩ => rfl)

section VectorUnit

variable {a b : ℕ} (z : FVec Ideal ⟨2, ![a, b]⟩ .f32)
  (hR : (⟨2, ![a, b]⟩ : Shape).Reduces [1] ⟨1, ![a]⟩) (hφ : FKind.Formats .f32)
  (hmax : (0xFF800000#32 : BitVec 32) = 0xFF800000#32) (hadd : (0x00000000#32 : BitVec 32) = 0x00000000#32)
  (hc : (⟨1, ![a]⟩ : Shape).ShapeCasts ⟨2, ![a, 1]⟩) (hb : (⟨2, ![a, 1]⟩ : Shape).Broadcasts ⟨2, ![a, b]⟩)

/-- Every row's maximum as a column spread back over the row reads, at `(p, k)`, row `p`'s maximum. -/
theorem vecMaxSpread_apply (p : Fin a) (k : Fin b) :
    broadcastTo ⟨2, ![a, b]⟩ (shapeCast ⟨2, ![a, 1]⟩ (multiReduction .maximumf [1] ⟨1, ![a]⟩ z 0xFF800000#32 hR hφ hmax) hc) hb (ix2 p k)
      = rowMax fun j => z (ix2 p j) := by
  rw [Cert.LibColumn.broadcastTo_a1_ab_apply, Cert.LibColumn.shapeCast_a_a1_apply, laneMax_apply]

/-- The vector unit's log-softmax of the rows of `z`, at `(p, q)`: the log-softmax of row `p` at `q`. -/
theorem vec_apply (p : Fin a) (q : Fin b) :
    subf (subf z (broadcastTo ⟨2, ![a, b]⟩ (shapeCast ⟨2, ![a, 1]⟩ (multiReduction .maximumf [1] ⟨1, ![a]⟩ z 0xFF800000#32 hR hφ hmax) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z 0xFF800000#32 hR hφ hmax) hc) hb)))
          0x00000000#32 hR hφ hadd) hc)) hb) (ix2 p q)
      = logSoftmax (fun k => z (ix2 p k)) q := by
  have hd : ∀ k, subf z (broadcastTo ⟨2, ![a, b]⟩ (shapeCast ⟨2, ![a, 1]⟩ (multiReduction .maximumf [1] ⟨1, ![a]⟩ z 0xFF800000#32 hR hφ hmax) hc) hb) (ix2 p k)
      = z (ix2 p k) - rowMax fun j => z (ix2 p j) := fun k =>
    congrArg (z (ix2 p k) - ·) (vecMaxSpread_apply z hR hφ hmax hc hb p k)
  refine (congrArg₂ (· - ·) (hd q) ?_).trans rfl
  rw [Cert.LibColumn.broadcastTo_a1_ab_apply]
  refine congrArg Ideal.log ?_
  rw [Cert.LibColumn.shapeCast_a_a1_apply, Cert.RowScalars.laneSum_apply]
  exact Finset.sum_congr rfl fun k _ => congrArg Ideal.exp (hd k)

end VectorUnit

section Host

variable {n d : ℕ} (z : (⟨2, ![n, d]⟩ : Shape).Idx → EReal)
  (h' : (⟨2, ![n, d]⟩ : Shape).ReducesTo [1] ⟨1, ![n]⟩) (hR : (⟨2, ![n, d]⟩ : Shape).Reduces [1] ⟨1, ![n]⟩)
  (hu : 0 < (⟨0, ![]⟩ : Shape).numel)
  (hs : (⟨0, ![]⟩ : Shape).BroadcastsInDim ⟨1, ![n]⟩ (![] : Fin 0 → Fin 1))
  (hcol : (⟨1, ![n]⟩ : Shape).BroadcastsInDim ⟨2, ![n, 1]⟩ (![0] : Fin 1 → Fin 2))
  (hsp : (⟨2, ![n, 1]⟩ : Shape).BroadcastsInDim ⟨2, ![n, d]⟩ (![0, 1] : Fin 2 → Fin 2))

include hR

/-- Every row's maximum, taken once more against −∞ and spread back in two steps, reads at `(p, k)` row `p`'s maximum. -/
theorem hostMaxSpread_apply (p : Fin n) (k : Fin d) :
    broadcastInDim ⟨2, ![n, d]⟩ ![0, 1] hsp (broadcastInDim ⟨2, ![n, 1]⟩ ![0] hcol
        (maximumf (F := Ideal) (φ := .f32) (broadcastInDim ⟨1, ![n]⟩ ![] hs (constant (F := Ideal) ⟨0, ![]⟩ .f32 0xFF800000#32))
          (Host.reduce (FloatOps.maximumf (F := Ideal) (φ := .f32)) z (constant (F := Ideal) ⟨0, ![]⟩ .f32 0xFF800000#32) h' hu))) (ix2 p k)
      = rowMax fun j => z (ix2 p j) := by
  rw [Cert.LibHostColumn.spread_apply, Cert.LibHostColumn.column_apply]
  show max (broadcastInDim ⟨1, ![n]⟩ ![] hs (constant (F := Ideal) ⟨0, ![]⟩ .f32 0xFF800000#32) (ix1 p))
      (Host.reduce (FloatOps.maximumf (F := Ideal) (φ := .f32)) z (constant (F := Ideal) ⟨0, ![]⟩ .f32 0xFF800000#32) h' hu (ix1 p)) = _
  rw [Cert.LibHostRow.scalar_apply, Cert.LibHostRowMax.reduce_max_row z _ h' hR hu p]
  show max (Ideal.ofBits .f32 0xFF800000#32) (Finset.fold max (Ideal.ofBits .f32 0xFF800000#32) _ _) = _
  rw [ofBits_ninf, Cert.LibHostColumn.max_start_fold]
  rfl

/-- The host's log-softmax of the rows of `z`, at `(p, q)`: the log-softmax of row `p` at `q`. -/
theorem host_apply (p : Fin n) (q : Fin d) :
    subf (F := Ideal) (φ := .f32) (subf (F := Ideal) (φ := .f32) z (broadcastInDim ⟨2, ![n, d]⟩ ![0, 1] hsp (broadcastInDim ⟨2, ![n, 1]⟩ ![0] hcol
        (maximumf (F := Ideal) (φ := .f32) (broadcastInDim ⟨1, ![n]⟩ ![] hs (constant (F := Ideal) ⟨0, ![]⟩ .f32 0xFF800000#32))
          (Host.reduce (FloatOps.maximumf (F := Ideal) (φ := .f32)) z (constant (F := Ideal) ⟨0, ![]⟩ .f32 0xFF800000#32) h' hu)))))
      (broadcastInDim ⟨2, ![n, d]⟩ ![0, 1] hsp (Host.log (F := Ideal) (φ := .f32) (broadcastInDim ⟨2, ![n, 1]⟩ ![0] hcol
        (Host.reduceAdd (F := Ideal) (φ := .f32) (Host.exp (F := Ideal) (φ := .f32) (subf (F := Ideal) (φ := .f32) z (broadcastInDim ⟨2, ![n, d]⟩ ![0, 1] hsp (broadcastInDim ⟨2, ![n, 1]⟩ ![0] hcol
          (maximumf (F := Ideal) (φ := .f32) (broadcastInDim ⟨1, ![n]⟩ ![] hs (constant (F := Ideal) ⟨0, ![]⟩ .f32 0xFF800000#32))
            (Host.reduce (FloatOps.maximumf (F := Ideal) (φ := .f32)) z (constant (F := Ideal) ⟨0, ![]⟩ .f32 0xFF800000#32) h' hu))))))
          (constant (F := Ideal) ⟨0, ![]⟩ .f32 0x00000000#32) h' hu)))) (ix2 p q)
      = logSoftmax (fun k => z (ix2 p k)) q := by
  have hd : ∀ k, subf (F := Ideal) (φ := .f32) z (broadcastInDim ⟨2, ![n, d]⟩ ![0, 1] hsp (broadcastInDim ⟨2, ![n, 1]⟩ ![0] hcol
        (maximumf (F := Ideal) (φ := .f32) (broadcastInDim ⟨1, ![n]⟩ ![] hs (constant (F := Ideal) ⟨0, ![]⟩ .f32 0xFF800000#32))
          (Host.reduce (FloatOps.maximumf (F := Ideal) (φ := .f32)) z (constant (F := Ideal) ⟨0, ![]⟩ .f32 0xFF800000#32) h' hu)))) (ix2 p k)
      = z (ix2 p k) - rowMax fun j => z (ix2 p j) := fun k =>
    congrArg (z (ix2 p k) - ·) (hostMaxSpread_apply z h' hR hu hs hcol hsp p k)
  refine (congrArg₂ (· - ·) (hd q) ?_).trans rfl
  rw [Cert.LibHostColumn.spread_apply]
  refine congrArg Ideal.log ?_
  rw [Cert.LibHostColumn.column_apply, Cert.LibHostRowSum.reduceAdd_row _ _ h' hR hu p]
  show Ideal.ofBits .f32 0x00000000#32 + _ = _
  rw [Ideal.ofBits_zero_f32, zero_add]
  exact Finset.sum_congr rfl fun k _ => congrArg Ideal.exp (hd k)

end Host

end Cert.LibLogSoftmaxBlock

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.KernelBlock.lean ====
/-
  One grid point of the kernel, read at an entry of its output block.

  The body takes a block of 2048 points `x_p`, all 1024 centres `c_k` and the row of the centres' squared norms `s_k`.
  Its scores are `⟨x_p, c_k⟩ − ½ s_k`: the matrix unit contracts the last axis of both operands into a zero accumulator
  (narrowing the operands first, which is the identity on exact values), and the row of half squared norms is spread
  down the rows and subtracted. What it stores is the log-softmax of every row of scores.
-/
import proofs.«142295_j69406671503893_2_alg».proof.Proof.Gen.KernelIdeal.Skeleton
import proofs.«142295_j69406671503893_2_alg».proof.Proof.LibLogSoftmaxBlock
import proofs.«142295_j69406671503893_2_alg».proof.Proof.LibDotLastAxes
import Idealize.ShloMosaic.Lib.ValueLayout

noncomputable section

open scoped BigOperators

namespace Cert.KernelIdeal.Block

open Cert.KernelIdeal Cert.KernelIdeal.Gen Idealize.ShloMosaic Idealize.ShloMosaic.ValueIdx Cert.LibLogSoftmaxShift

variable (x0 : Vec Ideal S2048x1024 .f32) (x1 : Vec Ideal S1024x1024 .f32) (x2 : Vec Ideal S1x1024 .f32)

/-- The block's scores, as the body computes them. -/
def scores : FVec Ideal S2048x1024 .f32 :=
  subf (matmul dot_S2048x1024_S1024x1024_S2048x1024_1_1_0_0_n_n none (truncf .bf16 x0 bitsLt_bf16_f32) (truncf .bf16 x1 bitsLt_bf16_f32)
      (constant S2048x1024 .f32 0x00000000#32))
    (broadcastTo S2048x1024 (mulf (broadcast S1x1024 (Scalar.ofBits .f32 0x3F000000#32)) (shapeCast S1x1024 x2 shapeCasts_S1x1024_S1x1024))
      broadcasts_S1x1024_S2048x1024)

/-- The score of point `p` of the block against centre `k`: the inner product less half the centre's squared norm. -/
theorem scores_apply (p : Fin 2048) (k : Fin 1024) :
    scores x0 x1 x2 (ix2 p k)
      = (∑ d : Fin 1024, x0 (ix2 p d) * x1 (ix2 k d)) - Ideal.ofBits .f32 0x3F000000#32 * x2 (ix2 (0 : Fin 1) k) := by
  refine congrArg₂ (· - ·) ?_ ?_
  · exact Idealize.ShloMosaic.DotLastAxes.matmul_zero_apply dot_S2048x1024_S1024x1024_S2048x1024_1_1_0_0_n_n_wf none
      (truncf .bf16 x0 bitsLt_bf16_f32) (truncf .bf16 x1 bitsLt_bf16_f32) p k
  · refine (broadcastTo_1b_ab_apply _ broadcasts_S1x1024_S2048x1024 p k).trans ?_
    show Ideal.ofBits .f32 0x3F000000#32 * shapeCast S1x1024 x2 shapeCasts_S1x1024_S1x1024 (ix2 (0 : Fin 1) k) = _
    rw [shapeCast_self]

/-- What the body stores, at `(p, q)` of the block: the log-softmax of row `p` of the scores at `q`. -/
theorem pay_apply (p : Fin 2048) (q : Fin 1024) :
    k0_pay1 (F := Ideal) x0 x1 x2 (ix2 p q) = logSoftmax (fun k => scores x0 x1 x2 (ix2 p k)) q :=
  Cert.LibLogSoftmaxBlock.vec_apply (scores x0 x1 x2) reduces_S2048x1024_S2048 (.inl rfl) rfl rfl
    shapeCasts_S2048_S2048x1 broadcasts_S2048x1_S2048x1024 p q

end Cert.KernelIdeal.Block

end
-- ==== Proof.Spec.lean ====
/-
  The function both programs compute.

  For points `x_b` (rows of a `[16384, 1024]` array) and centres `c_k` (rows of a `[1024, 1024]` array) the result at
  `(b, k)` is the log-softmax, over the centres, of the scores `⟨x_b, c_j⟩ − ½ ‖c_j‖²`, the squared norm a sum started
  from the word 0 as the programs start it. These scores differ from `−½ ‖x_b − c_j‖²` by `−½ ‖x_b‖²`, which does not
  depend on `j`; for real arrays the log-softmax does not see that term, which is why the reference, which keeps it,
  computes the same function (`spec_eq_dist`).
-/
import proofs.«142295_j69406671503893_2_alg».proof.Proof.LibLogSoftmaxShift
import Idealize.ShloMosaic.Lib.ValueIdx

noncomputable section

open scoped BigOperators

namespace Cert.Spec

open Idealize.ShloMosaic Idealize.ShloMosaic.ValueIdx Cert.LibLogSoftmaxShift

/-- The score of point `b` against centre `k`: the inner product less half the centre's squared norm. -/
def score (x : (⟨2, ![16384, 1024]⟩ : Shape).Idx → EReal) (c : (⟨2, ![1024, 1024]⟩ : Shape).Idx → EReal)
    (b : Fin 16384) (k : Fin 1024) : EReal :=
  (∑ d : Fin 1024, x (ix2 b d) * c (ix2 k d))
    - Ideal.ofBits .f32 0x3F000000#32 * (Ideal.ofBits .f32 0x00000000#32 + ∑ d : Fin 1024, c (ix2 k d) * c (ix2 k d))

/-- The result array: at `(b, k)` the log-softmax of point `b`'s scores at centre `k`. -/
def G (x : (⟨2, ![16384, 1024]⟩ : Shape).Idx → EReal) (c : (⟨2, ![1024, 1024]⟩ : Shape).Idx → EReal) :
    (⟨2, ![16384, 1024]⟩ : Shape).Idx → EReal :=
  fun i => logSoftmax (fun k => score x c (i 0) k) (i 1)

theorem G_apply (x : (⟨2, ![16384, 1024]⟩ : Shape).Idx → EReal) (c : (⟨2, ![1024, 1024]⟩ : Shape).Idx → EReal)
    (b : Fin 16384) (k : Fin 1024) : G x c (ix2 b k) = logSoftmax (fun j => score x c b j) k := rfl

/-- The f32 words of ½, 2 and −½ as reals. -/
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_zero : Ideal.ofBits .f32 0x00000000#32 = 0 := by simp [Ideal.ofBits, Ideal.ieee]

/-- For arrays of reals, the log-softmax of minus half the expanded squared distances is the result array: the term
    `−½ ‖x_b‖²` is the same for every centre. -/
theorem spec_eq_dist (x : (⟨2, ![16384, 1024]⟩ : Shape).Idx → EReal) (c : (⟨2, ![1024, 1024]⟩ : Shape).Idx → EReal)
    (hx : ∀ i, ∃ r : ℝ, x i = (r : EReal)) (hc : ∀ i, ∃ r : ℝ, c i = (r : EReal)) (b : Fin 16384) (k : Fin 1024) :
    logSoftmax (fun j => Ideal.ofBits .f32 0xBF000000#32
        * (((Ideal.ofBits .f32 0x00000000#32 + ∑ d : Fin 1024, x (ix2 b d) * x (ix2 b d))
              - Ideal.ofBits .f32 0x40000000#32 * ∑ d : Fin 1024, x (ix2 b d) * c (ix2 j d))
            + (Ideal.ofBits .f32 0x00000000#32 + ∑ d : Fin 1024, c (ix2 j d) * c (ix2 j d)))) k
      = G x c (ix2 b k) := by
  choose x' hx' using hx
  choose c' hc' using hc
  rw [G_apply]
  unfold score
  simp only [hx', hc']
  exact logSoftmax_dist _ _ _ _ ofBits_half ofBits_two ofBits_neg_half ofBits_zero (fun d => x' (ix2 b d))
    (fun j d => c' (ix2 j d)) k

end Cert.Spec

end
-- ==== Proof.KernelArray.lean ====
/-
  The kernel's result array as one function of its two arguments.

  The grid has 8 points. Point `t` reads rows `2048 t … 2048 t + 2047` of the points' array, all of the centres' array and
  the row of the centres' squared norms (which the program computes before the launch: each a sum of squares started from
  the word 0), and writes rows `2048 t … 2048 t + 2047` of the result. So what point `t` writes back is that block of rows of
  the result array `Spec.G`, the 8 blocks cover the array, and the array ends holding `Spec.G` of the arguments.
-/
import proofs.«142295_j69406671503893_2_alg».proof.Proof.Gen.KernelIdeal.Value
import proofs.«142295_j69406671503893_2_alg».proof.Proof.KernelBlock
import proofs.«142295_j69406671503893_2_alg».proof.Proof.Spec
import proofs.«142295_j69406671503893_2_alg».proof.Proof.LibHostRow
import proofs.«142295_j69406671503893_2_alg».proof.Proof.LibHostRowSum
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Value Idealize.ShloMosaic.ValueIdx Cert.LibLogSoftmaxShift
open Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The two argument arrays as launched, and the row of squared norms as the launch finds it, as arrays of extended reals. -/
abbrev argX (c : Dev nD) : S16384x1024.Idx → EReal := m ((c : Thread nD τ).loc main_arg0)
abbrev argC (c : Dev nD) : S1024x1024.Idx → EReal := m ((c : Thread nD τ).loc main_arg1)
abbrev csqV (c : Dev nD) : S1x1024.Idx → EReal := V m c main_v2

/-- The block index maps over the grid: the points' window and the result's window move with the grid point along the
    rows; the centres' and the squared norms' windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem reduces_c : S1024x1024.Reduces [1] S1024 := by decide

/-- The points' block at point `t`: row `p` of the block is row `2048 t + p` of the array. -/
theorem xblk_apply (c : Dev nD) (t : Fin cfg0.N) (p : Fin 2048) (d : Fin 1024) (b : Fin 16384)
    (hb : b.val = t.val * 2048 + p.val) :
    (iblk m c 0 t : Vec Ideal S2048x1024 .f32) (ix2 p d) = (argX m c) (ix2 b d) := by
  obtain ⟨e0, e1, -⟩ := idx_facts t
  unfold iblk
  rw [View.read_apply]
  show V m c main_arg0 _ = _
  rw [V_main_arg0]
  refine congrArg (argX m c) ?_
  funext a
  apply Fin.ext
  match a with
  | ⟨0, _⟩ => show win0_0.index t 0 * 2048 + 1 * p.val = b.val; omega
  | ⟨1, _⟩ => show win0_0.index t 1 * 1024 + 1 * d.val = d.val; omega

/-- The centres' block at every point is the whole array. -/
theorem cblk_apply (c : Dev nD) (t : Fin cfg0.N) (k : Fin 1024) (d : Fin 1024) :
    (iblk m c 1 t : Vec Ideal S1024x1024 .f32) (ix2 k d) = (argC m c) (ix2 k d) := by
  obtain ⟨-, -, e2, e3, -⟩ := idx_facts t
  unfold iblk
  rw [View.read_apply]
  show V m c main_arg1 _ = _
  rw [V_main_arg1]
  refine congrArg (argC m c) ?_
  funext a
  apply Fin.ext
  match a with
  | ⟨0, _⟩ => show win0_1.index t 0 * 1024 + 1 * k.val = k.val; omega
  | ⟨1, _⟩ => show win0_1.index t 1 * 1024 + 1 * d.val = d.val; omega

/-- The row of squared norms as the launch finds it: what the program's operations before the launch computed. -/
theorem V_csq (c : Dev nD) :
    csqV m c = broadcastInDim S1x1024 ![1] bcast_S1024_S1x1024_1
      (Host.reduceAdd (F := Ideal) (mulf (F := Ideal) (argC m c) (argC m c))
        (constant (F := Ideal) S_ .f32 0x00000000#32) reducesTo_S1024x1024_S1024_d1 h_S_) := by
  dsimp only [csqV, argC, Gen.V, Gen.hostOps0]
  after_results

/-- That row at centre `k`: the sum of the squares of the centre's coordinates. -/
theorem csq_apply (c : Dev nD) (k : Fin 1024) :
    csqV m c (ix2 (0 : Fin 1) k)
      = Ideal.ofBits .f32 0x00000000#32 + ∑ d : Fin 1024, argC m c (ix2 k d) * argC m c (ix2 k d) := by
  rw [V_csq]
  exact (Cert.LibHostRow.row_apply _ bcast_S1024_S1x1024_1 0 k).trans
    (Cert.LibHostRowSum.reduceAdd_row _ _ reducesTo_S1024x1024_S1024_d1 reduces_c h_S_ k)

/-- The squared norms' block at every point is the whole row. -/
theorem sblk_apply (c : Dev nD) (t : Fin cfg0.N) (k : Fin 1024) :
    (iblk m c 2 t : Vec Ideal S1x1024 .f32) (ix2 (0 : Fin 1) k) = csqV m c (ix2 (0 : Fin 1) k) := by
  obtain ⟨-, -, -, -, e4, e5, -⟩ := idx_facts t
  unfold iblk
  rw [View.read_apply]
  refine congrArg (csqV m c) ?_
  funext a
  apply Fin.ext
  match a with
  | ⟨0, _⟩ => show win0_2.index t 0 * 1 + 1 * 0 = 0; omega
  | ⟨1, _⟩ => show win0_2.index t 1 * 1024 + 1 * k.val = k.val; omega

/-- What point `t` stores at `(p, q)` of its block is the result array at row `2048 t + p`, column `q`. -/
theorem block_apply (c : Dev nD) (t : Fin cfg0.N) (p : Fin 2048) (q : Fin 1024) (b : Fin 16384)
    (hb : b.val = t.val * 2048 + p.val) :
    k0_pay1 (F := Ideal) (iblk m c 0 t) (iblk m c 1 t) (iblk m c 2 t) (ix2 p q)
      = Cert.Spec.G (argX m c) (argC m c) (ix2 b q) := by
  refine (Cert.KernelIdeal.Block.pay_apply (iblk m c 0 t) (iblk m c 1 t) (iblk m c 2 t) p q).trans ?_
  rw [Cert.Spec.G_apply]
  refine congrArg (fun L => logSoftmax L q) (funext fun k => ?_)
  refine (Cert.KernelIdeal.Block.scores_apply (iblk m c 0 t) (iblk m c 1 t) (iblk m c 2 t) p k).trans ?_
  unfold Cert.Spec.score
  refine congrArg₂ (· - ·) (Finset.sum_congr rfl fun d _ => ?_) (congrArg (Ideal.ofBits .f32 0x3F000000#32 * ·) ((sblk_apply m c t k).trans (csq_apply m c k)))
  exact congrArg₂ (· * ·) (xblk_apply m c t p d b hb) (cblk_apply m c t k d)

/-- The same at any index of the block and the array index it is written to. -/
theorem block_apply' (c : Dev nD) (t : Fin cfg0.N) (j : S2048x1024.Idx) (i : S16384x1024.Idx)
    (h0 : (i 0).val = t.val * 2048 + (j 0).val) (h1 : (i 1).val = (j 1).val) :
    k0_pay1 (F := Ideal) (iblk m c 0 t) (iblk m c 1 t) (iblk m c 2 t) j = Cert.Spec.G (argX m c) (argC m c) i := by
  obtain ⟨p, q, rfl⟩ : ∃ (p : Fin 2048) (q : Fin 1024), j = ix2 p q := ⟨j 0, j 1, eq_ix2 j⟩
  obtain ⟨b, q', rfl⟩ : ∃ (b : Fin 16384) (q' : Fin 1024), i = ix2 b q' := ⟨i 0, i 1, eq_ix2 i⟩
  obtain rfl : q' = q := Fin.ext h1
  exact block_apply m c t p q' b h0

/-- What point `t` writes back is block `t` of the result array. -/
theorem flushed_eq (c : Dev nD) (t : Fin cfg0.N) :
    (dats m 0 c).flushed 3 t = ((cfg0.win 3).blk t).view.read (Elt Ideal) (Cert.Spec.G (argX m c) (argC m c)) := by
  rw [flushed3]
  unfold out0_3
  rw [View.canon_unit_zero hz]
  simp only [View.ld_unit_zero (S := S2048x1024) hz, View.ld_unit_zero (S := S1024x1024) hz, View.ld_unit_zero (S := S1x1024) hz]
  obtain ⟨-, -, -, -, -, -, e6, e7⟩ := idx_facts t
  funext j
  exact block_apply' m c t j (((cfg0.win 3).blk t).view.emb j)
    (by show win0_3.index t 0 * 2048 + 1 * (j 0).val = t.val * 2048 + (j 0).val; omega)
    (by show win0_3.index t 1 * 1024 + 1 * (j 1).val = (j 1).val; omega)

/-- An index of the result array is in point `t`'s block iff each coordinate is in the block's range on its axis. -/
theorem mem_blk (t : Fin cfg0.N) (i : S16384x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v3).slice (win0_3.rect t)).set ↔ _
  rw [View.set_slice_whole, Rect.mem_set_unit]
  exact Iff.rfl

/-- Every index of the result array is in the block of the point numbered by its row divided by 2048. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : grid0.N = 8 := N_0
  obtain ⟨t, ht⟩ : ∃ t : Fin cfg0.N, t.val = (i 0).val / 2048 := ⟨⟨(i 0).val / 2048, by show _ < grid0.N; omega⟩, rfl⟩
  obtain ⟨-, -, -, -, -, -, e6, e7⟩ := idx_facts t
  refine ⟨t, flush0_3 t, ?_⟩
  rw [mem_blk]
  intro a
  match a with
  | ⟨0, _⟩ =>
    show win0_3.index t 0 * 2048 ≤ (i 0).val ∧ (i 0).val < win0_3.index t 0 * 2048 + 2048
    omega
  | ⟨1, _⟩ =>
    show win0_3.index t 1 * 1024 ≤ (i 1).val ∧ (i 1).val < win0_3.index t 1 * 1024 + 1024
    omega

/-- The result array after the run is `Spec.G` of the two argument arrays. -/
theorem final (c : Dev nD) : (dats m 0 c).arrAt 3 cfg0.N = Cert.Spec.G (argX m c) (argC m c) :=
  (dats m 0 c).arrAt_eq_of_cover 3 (Cert.Spec.G (argX m c) (argC m c)) (fun t _ => flushed_eq m c t) cover

/-- Every weakly fair execution of the kernel's program ends with the result array at `Spec.G` of the arguments, the
    arguments unchanged. -/
theorem run : θ_run defs (onTc (τ := τ) (main (F := Ideal))) ⟨m, fun _ => 0, ρ⟩ fun r => ∀ c : Dev nD,
      r.2.mem ((c : Thread nD τ).loc main_v3) = Cert.Spec.G (argX m c) (argC m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Array

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.RefRun.lean ====
/-
  The reference program's run, read back as a value.

  The reference computes, for every point `x_b` and centre `c_k`, the score `−½ (‖x_b‖² − 2⟨x_b, c_k⟩ + ‖c_k‖²)`
  (`scores`), and then the log-softmax of every row of scores (`hostLogSoftmax`: the row maximum from −∞, the
  differences, their exponentials summed, the logarithm subtracted). The program is a straight line of host operations,
  so every weakly fair execution ends with the result buffer at `hostLogSoftmax (scores x c)` of the argument arrays,
  the arguments unchanged. The operations of the log-softmax write and read their buffers through typed references;
  a value written through one and read back through it is the value itself, which is what removes them from the term.
-/
import proofs.«142295_j69406671503893_2_alg».proof.Proof.Gen.ReferenceIdeal
import proofs.«142295_j69406671503893_2_alg».proof.Proof.LibTRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's host operations, in order; the log-softmax's operations stand where it is called. -/
abbrev ops : List (HloOp τ sig (Elt F)) :=
  [ binary main_arg0 main_arg0 main_v0 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v0 main_cst main_v1 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S1024x1024, .f32⟩ : BufTy).Contents (Elt F) → (⟨S1024x1024, .f32⟩ : BufTy).Contents (Elt F) → (⟨S1024x1024, .f32⟩ : BufTy).Contents (Elt F)),
    nullary main_cst_0 (constant S_ .f32 0x00000000#32),
    binary main_v3 main_cst_0 main_v4 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    binary main_arg0 main_arg1 main_v5 ((fun l r => Host.dotGeneral dot_S16384x1024_S1024x1024_S16384x1024_1_1_0_0_n_n none l r) : (⟨S16384x1024, .f32⟩ : BufTy).Contents (Elt F) → (⟨S1024x1024, .f32⟩ : BufTy).Contents (Elt F) → (⟨S16384x1024, .f32⟩ : BufTy).Contents (Elt F)),
    nullary main_cst_1 (constant S_ .f32 0x40000000#32),
    unary main_cst_1 main_v6 (broadcastInDim S16384x1024 ![] bcast_S_S16384x1024 : (⟨S_, .f32⟩ : BufTy).Contents (Elt F) → (⟨S16384x1024, .f32⟩ : BufTy).Contents (Elt F)),
    binary main_v6 main_v5 main_v7 (mulf : (⟨S16384x1024, .f32⟩ : BufTy).Contents (Elt F) → (⟨S16384x1024, .f32⟩ : BufTy).Contents (Elt F) → (⟨S16384x1024, .f32⟩ : BufTy).Contents (Elt F)),
    unary main_v2 main_v8 (broadcastInDim S16384x1024 ![0, 1] bcast_S16384x1_S16384x1024_0_1 : (⟨S16384x1, .f32⟩ : BufTy).Contents (Elt F) → (⟨S16384x1024, .f32⟩ : BufTy).Contents (Elt F)),
    binary main_v8 main_v7 main_v9 (subf : (⟨S16384x1024, .f32⟩ : BufTy).Contents (Elt F) → (⟨S16384x1024, .f32⟩ : BufTy).Contents (Elt F) → (⟨S16384x1024, .f32⟩ : BufTy).Contents (Elt F)),
    unary main_v4 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S16384x1024 ![0, 1] bcast_S1x1024_S16384x1024_0_1 : (⟨S1x1024, .f32⟩ : BufTy).Contents (Elt F) → (⟨S16384x1024, .f32⟩ : BufTy).Contents (Elt F)),
    binary main_v9 main_v11 main_v12 (addf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0xBF000000#32),
    unary main_cst_2 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call0_cst) (constant S_ .f32 0xFF800000#32),
    TRef.binary (TRef.of (T := ⟨S16384x1024, .f32⟩) main_v14) (TRef.of (T := ⟨S_, .f32⟩) main_call0_cst) (TRef.of (T := ⟨S16384, .f32⟩) main_call0_v0) (fun x v => Host.reduce FloatOps.maximumf x v reducesTo_S16384x1024_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x1024, .f32⟩) main_call0_v4) (broadcastInDim S16384x1024 ![0, 1] bcast_S16384x1_S16384x1024_0_1),
    TRef.binary (TRef.of (T := ⟨S16384x1024, .f32⟩) main_v14) (TRef.of (T := ⟨S16384x1024, .f32⟩) main_call0_v4) (TRef.of (T := ⟨S16384x1024, .f32⟩) main_call0_v5) subf,
    TRef.unary (TRef.of (T := ⟨S16384x1024, .f32⟩) main_call0_v5) (TRef.of (T := ⟨S16384x1024, .f32⟩) main_call0_v6) Host.exp,
    TRef.nullary (TRef.of (T := ⟨S_, .f32⟩) main_call0_cst_1) (constant S_ .f32 0x00000000#32),
    TRef.binary (TRef.of (T := ⟨S16384x1024, .f32⟩) main_call0_v6) (TRef.of (T := ⟨S_, .f32⟩) main_call0_cst_1) (TRef.of (T := ⟨S16384, .f32⟩) main_call0_v7) (fun x v => Host.reduceAdd x v reducesTo_S16384x1024_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x1024, .f32⟩) main_call0_v10) (broadcastInDim S16384x1024 ![0, 1] bcast_S16384x1_S16384x1024_0_1),
    TRef.binary (TRef.of (T := ⟨S16384x1024, .f32⟩) main_call0_v5) (TRef.of (T := ⟨S16384x1024, .f32⟩) main_call0_v10) (TRef.of (T := ⟨S16384x1024, .f32⟩) main_v15) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The scores `−½ ((‖x_b‖² − 2 ⟨x_b, c_k⟩) + ‖c_k‖²)` as the host computes them from the two argument arrays. -/
def scores (x : (⟨S16384x1024, .f32⟩ : BufTy).Contents (Elt F)) (c : (⟨S1024x1024, .f32⟩ : BufTy).Contents (Elt F)) :
    (⟨S16384x1024, .f32⟩ : BufTy).Contents (Elt F) :=
  mulf (broadcastInDim S16384x1024 ![] bcast_S_S16384x1024 (constant S_ .f32 0xBF000000#32))
    (addf
      (subf
        (broadcastInDim S16384x1024 ![0, 1] bcast_S16384x1_S16384x1024_0_1
          (broadcastInDim S16384x1 ![0] bcast_S16384_S16384x1_0
            (Host.reduceAdd (mulf x x) (constant S_ .f32 0x00000000#32) reducesTo_S16384x1024_S16384_d1 h_S_)))
        (mulf (broadcastInDim S16384x1024 ![] bcast_S_S16384x1024 (constant S_ .f32 0x40000000#32))
          (Host.dotGeneral dot_S16384x1024_S1024x1024_S16384x1024_1_1_0_0_n_n none x c)))
      (broadcastInDim S16384x1024 ![0, 1] bcast_S1x1024_S16384x1024_0_1
        (broadcastInDim S1x1024 ![1] bcast_S1024_S1x1024_1
          (Host.reduceAdd (mulf c c) (constant S_ .f32 0x00000000#32) reducesTo_S1024x1024_S1024_d1 h_S_))))

/-- Every row's maximum (from −∞, and once more against −∞), spread back over the row. -/
def rowMaxSpread (z : (⟨S16384x1024, .f32⟩ : BufTy).Contents (Elt F)) : (⟨S16384x1024, .f32⟩ : BufTy).Contents (Elt F) :=
  broadcastInDim S16384x1024 ![0, 1] bcast_S16384x1_S16384x1024_0_1
    (broadcastInDim S16384x1 ![0] bcast_S16384_S16384x1_0
      (maximumf (broadcastInDim S16384 ![] bcast_S_S16384 (constant S_ .f32 0xFF800000#32))
        (Host.reduce FloatOps.maximumf z (constant S_ .f32 0xFF800000#32) reducesTo_S16384x1024_S16384_d1 h_S_)))

/-- The host's log-softmax of every row of `z`. -/
def hostLogSoftmax (z : (⟨S16384x1024, .f32⟩ : BufTy).Contents (Elt F)) : (⟨S16384x1024, .f32⟩ : BufTy).Contents (Elt F) :=
  subf (subf z (rowMaxSpread z))
    (broadcastInDim S16384x1024 ![0, 1] bcast_S16384x1_S16384x1024_0_1
      (Host.log
        (broadcastInDim S16384x1 ![0] bcast_S16384_S16384x1_0
          (Host.reduceAdd (Host.exp (subf z (rowMaxSpread z))) (constant S_ .f32 0x00000000#32)
            reducesTo_S16384x1024_S16384_d1 h_S_))))

set_option maxHeartbeats 2000000 in
/-- On every device, from any memory with zero counters: every weakly fair execution of the reference terminates with its
    result at the log-softmax of the scores of the two argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = hostLogSoftmax (scores (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by
        after_results_simp
        simp only [Cert.LibTRef.ofBuf_toBuf, Cert.LibTRef.toBuf_ofBuf]
        rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.LibHostDotLastAxes.lean ====
/-
  The host's matrix product that contracts the LAST axis of both operands, at the exact values.

  For `A` of shape [M, K] and `B` of shape [N, K] (what `einsum('bd,kd->bk')` lowers to) the product has, at row `a` and
  column `b`, the value `∑ c, A (a, c) * B (b, c)`: both operands are read along their rows. For any extents and formats.
-/
import Idealize.ShloMosaic.PureOps.Ideal.Laws
import Idealize.ShloMosaic.Lib.ValueIdx

noncomputable section

open scoped BigOperators

namespace Cert.LibHostDotLastAxes

open Idealize.ShloMosaic Idealize.ShloMosaic.ValueIdx

variable {M K N : Nat}

/-- The host product of an [M, K] by an [N, K] matrix over their last axes, read at an index: the sum over the
    contracted coordinate of the products of the two rows' entries. -/
theorem dotGeneral_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    (Host.dotGeneral (F := Ideal) (⟨[1], [1], [0], [0], [], [], w⟩ : DotDims _ _ _) prec A B) (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibHostDotLastAxes

end
-- ==== Proof.RefValue.lean ====
/-
  The reference's value at an entry.

  At point `b` and centre `k` the reference's score is `−½ ((‖x_b‖² − 2 ⟨x_b, c_k⟩) + ‖c_k‖²)`, each squared norm and the
  inner product a sum over the 1024 coordinates (the host's sums start from the word 0, kept as written), and its
  result is the log-softmax of row `b` of the scores at `k`.
-/
import proofs.«142295_j69406671503893_2_alg».proof.Proof.RefRun
import proofs.«142295_j69406671503893_2_alg».proof.Proof.LibLogSoftmaxBlock
import proofs.«142295_j69406671503893_2_alg».proof.Proof.LibHostDotLastAxes

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.LibLogSoftmaxShift

variable (x : (⟨S16384x1024, .f32⟩ : BufTy).Contents (Elt Ideal)) (c : (⟨S1024x1024, .f32⟩ : BufTy).Contents (Elt Ideal))

/-- Rows of a `[16384, 1024]` and of a `[1024, 1024]` array are summed along their second axis. -/
theorem reduces_x : S16384x1024.Reduces [1] S16384 := by decide
theorem reduces_c : S1024x1024.Reduces [1] S1024 := by decide

/-- The reference's score of point `b` against centre `k`. -/
theorem scores_apply (b : Fin 16384) (k : Fin 1024) :
    scores (F := Ideal) x c (ix2 b k)
      = Ideal.ofBits .f32 0xBF000000#32
          * (((Ideal.ofBits .f32 0x00000000#32 + ∑ d : Fin 1024, x (ix2 b d) * x (ix2 b d))
                - Ideal.ofBits .f32 0x40000000#32 * ∑ d : Fin 1024, x (ix2 b d) * c (ix2 k d))
              + (Ideal.ofBits .f32 0x00000000#32 + ∑ d : Fin 1024, c (ix2 k d) * c (ix2 k d))) := by
  refine congrArg₂ (· * ·) (Cert.LibHostRow.scalar_apply _ bcast_S_S16384x1024 (ix2 b k)) ?_
  refine congrArg₂ (· + ·) (congrArg₂ (· - ·) ?_ (congrArg₂ (· * ·) (Cert.LibHostRow.scalar_apply _ bcast_S_S16384x1024 (ix2 b k)) ?_)) ?_
  · exact (Cert.LibHostColumn.spread_apply _ bcast_S16384x1_S16384x1024_0_1 b k).trans
      ((Cert.LibHostColumn.column_apply _ bcast_S16384_S16384x1_0 b 0).trans
        (Cert.LibHostRowSum.reduceAdd_row _ _ reducesTo_S16384x1024_S16384_d1 reduces_x h_S_ b))
  · exact Cert.LibHostDotLastAxes.dotGeneral_apply dot_S16384x1024_S1024x1024_S16384x1024_1_1_0_0_n_n_wf none x c b k
  · exact (Cert.LibHostRow.rows_apply _ bcast_S1x1024_S16384x1024_0_1 b k).trans
      ((Cert.LibHostRow.row_apply _ bcast_S1024_S1x1024_1 0 k).trans
        (Cert.LibHostRowSum.reduceAdd_row _ _ reducesTo_S1024x1024_S1024_d1 reduces_c h_S_ k))

/-- The reference's result at `(b, k)`: the log-softmax of row `b` of its scores, at `k`. -/
theorem result_apply (b : Fin 16384) (k : Fin 1024) :
    hostLogSoftmax (F := Ideal) (scores (F := Ideal) x c) (ix2 b k) = logSoftmax (fun j => scores (F := Ideal) x c (ix2 b j)) k :=
  Cert.LibLogSoftmaxBlock.host_apply (scores (F := Ideal) x c) reducesTo_S16384x1024_S16384_d1 reduces_x h_S_ bcast_S_S16384
    bcast_S16384_S16384x1_0 bcast_S16384x1_S16384x1024_0_1 b k

end Cert.ReferenceIdeal.RefValue

end
-- ==== Proof.Bridge.lean ====
/-
  The reference computes the result array `Spec.G`, for arrays of reals.

  At `(b, k)` the reference's result is the log-softmax of the scores `−½ ((‖x_b‖² − 2⟨x_b, c_j⟩) + ‖c_j‖²)` at `k`; for real
  arrays that is `Spec.G` at `(b, k)`, because `−½‖x_b‖²` is the same for every centre `j`.
-/
import proofs.«142295_j69406671503893_2_alg».proof.Proof.RefValue
import proofs.«142295_j69406671503893_2_alg».proof.Proof.Spec

noncomputable section

namespace Cert.ReferenceIdeal.Bridge

open Cert.ReferenceIdeal Cert.ReferenceIdeal.Gen Cert.ReferenceIdeal.RefRun Idealize.ShloMosaic Idealize.ShloMosaic.ValueIdx
open Cert.LibLogSoftmaxShift

/-- For argument arrays of reals the reference's result array is `Spec.G` of them. -/
theorem ref_eq_spec (x : (⟨S16384x1024, .f32⟩ : BufTy).Contents (Elt Ideal)) (c : (⟨S1024x1024, .f32⟩ : BufTy).Contents (Elt Ideal))
    (hx : ∀ i, ∃ r : ℝ, x i = (r : EReal)) (hc : ∀ i, ∃ r : ℝ, c i = (r : EReal)) :
    hostLogSoftmax (F := Ideal) (scores (F := Ideal) x c) = Cert.Spec.G x c := by
  funext i
  obtain ⟨b, k, rfl⟩ : ∃ (b : Fin 16384) (k : Fin 1024), i = ix2 b k := ⟨i 0, i 1, eq_ix2 i⟩
  refine (Cert.ReferenceIdeal.RefValue.result_apply x c b k).trans ?_
  refine (congrArg (fun L => logSoftmax L k) (funext fun j => Cert.ReferenceIdeal.RefValue.scores_apply x c b j)).trans ?_
  exact Cert.Spec.spec_eq_dist x c hx hc b k

end Cert.ReferenceIdeal.Bridge

end
-- ==== Proof.Finite.lean ====
/-
  The precondition, read back: every entry of the two argument arrays is a real number.

  The precondition says that `|x| < +∞` holds at every entry of both arrays (two `all`s joined by `and`). On the extended
  reals `|x| = max x (−x)` is `+∞` at both infinities, so an entry whose absolute value is below `+∞` is a real.
-/
import proofs.«142295_j69406671503893_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose absolute value compares below the f32 word of `+∞` is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]

/-- Under the precondition both argument arrays hold reals only. -/
theorem real_of_pre (x : FVec Ideal S16384x1024 .f32) (c : FVec Ideal S1024x1024 .f32)
    (h : fn (F := Ideal) x c = fun _ => 1#1) :
    (∀ i, ∃ r : ℝ, x i = (r : EReal)) ∧ (∀ i, ∃ r : ℝ, c i = (r : EReal)) := by
  have h0 := congrFun h ValueIdx.ix0
  dsimp only [fn] at h0
  obtain ⟨hx, hc⟩ := IntOp.andi_eq_one.1 h0
  exact ⟨fun i => real_of_abs_lt (x i) (Host.reduce_andi_all _ _ _ _ _ hx i),
    fun i => real_of_abs_lt (c i) (Host.reduce_andi_all _ _ _ _ _ hc i)⟩

end Cert.Finite

end
-- ==== Proof.lean ====
/-
  The proof of `Cert.Claim`: a k-means assignment kernel (log-softmax over 1024 centres of the scores of 16384 points)
  against its jnp reference, at the exact values.

  Both programs compute, for every point `x_b` and centre `c_k`, the log-softmax over the centres of a row of scores. The
  reference's scores are `−½ ‖x_b − c_k‖²`, expanded as `−½ ((‖x_b‖² − 2⟨x_b, c_k⟩) + ‖c_k‖²)`; the kernel drops the term
  `−½ ‖x_b‖²`, which is the same for every centre, and uses `⟨x_b, c_k⟩ − ½‖c_k‖²`. Adding a real constant to every score
  of a row moves the row's maximum by that constant and leaves every difference `score − maximum`, hence the
  log-softmax, unchanged; this needs the scores to be reals, which is where the precondition (every input finite) is
  used. The kernel's side: each of the 8 grid points writes 2048 rows of the result, the row's log-softmax read off the
  body's arithmetic entry by entry (`KernelBlock`, `KernelArray`). The reference's side: its straight-line run read back as a
  value (`RefRun`) and read at an entry (`RefValue`, `Bridge`). The frames of the two kernel programs are the generated ones;
  the reference's frame is its run with the result dropped; the idealization rewrote nothing, so `preserves` is trivial.
-/
import proofs.«142295_j69406671503893_2_alg».proof.Defs
import proofs.«142295_j69406671503893_2_alg».proof.Proof.Gen.Kernel
import proofs.«142295_j69406671503893_2_alg».proof.Proof.Gen.Kernel.Frame
import proofs.«142295_j69406671503893_2_alg».proof.Proof.Gen.KernelIdeal
import proofs.«142295_j69406671503893_2_alg».proof.Proof.Gen.KernelIdeal.Frame
import proofs.«142295_j69406671503893_2_alg».proof.Proof.Gen.KernelIdeal.Value
import proofs.«142295_j69406671503893_2_alg».proof.Proof.Gen.ReferenceIdeal
import proofs.«142295_j69406671503893_2_alg».proof.Proof.Gen.Pre_finite_inputs
import proofs.«142295_j69406671503893_2_alg».proof.Proof.KernelArray
import proofs.«142295_j69406671503893_2_alg».proof.Proof.RefRun
import proofs.«142295_j69406671503893_2_alg».proof.Proof.Bridge
import proofs.«142295_j69406671503893_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with their result at `Spec.G` of the argument arrays: the kernel always, the reference when the
    arrays hold reals, which the precondition gives. -/
theorem algebraic : Cert.algebraic_KernelIdeal_ReferenceIdeal := by
  intro m ρ m' ρ' hpre hagree
  refine ⟨fun c => Cert.Spec.G (Cert.KernelIdeal.Array.argX m c) (Cert.KernelIdeal.Array.argC m c),
    Cert.KernelIdeal.Array.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hx, hc⟩ := Cert.Finite.real_of_pre _ _ (hpre c)
  exact Cert.ReferenceIdeal.Bridge.ref_eq_spec _ _ hx hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
